-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S12x64 : Shape := ⟨2, ![12, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S12x64 : S_.BroadcastsInDim S12x64 (![] : Fin 0 → Fin S12x64.rank)
  reducesTo_S12x64_S_d0_1 : S12x64.ReducesTo [0, 1] S_

variable [Facts]

def fn {F : FTy → Type} [FloatOps F] (main_arg0 : FVec F S2x16x2048x64 .f32) (main_arg1 : FVec F S2x16x2048x64 .f32) (main_arg2 : FVec F S12x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S12x64 .f32 := Host.absf main_arg2
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  main_v13
-- ==== Kernel.lean ====
abbrev S2x16x2048x64 : Shape := ⟨4, ![2, 16, 2048, 64]⟩
abbrev S12x64 : Shape := ⟨2, ![12, 64]⟩
abbrev S4095 : Shape := ⟨1, ![4095]⟩
abbrev S_ : Shape := ⟨0, ![]⟩
abbrev S12 : Shape := ⟨1, ![12]⟩
abbrev S4095x1 : Shape := ⟨2, ![4095, 1]⟩
abbrev S1x12 : Shape := ⟨2, ![1, 12]⟩
abbrev S4095x12 : Shape := ⟨2, ![4095, 12]⟩
abbrev S4095x64 : Shape := ⟨2, ![4095, 64]⟩
abbrev S32x2048x64 : Shape := ⟨3, ![32, 2048, 64]⟩
abbrev S32x2048x4095 : Shape := ⟨3, ![32, 2048, 4095]⟩
abbrev S1x512x64 : Shape := ⟨3, ![1, 512, 64]⟩
abbrev S1024x64 : Shape := ⟨2, ![1024, 64]⟩
abbrev S1x512x1024 : Shape := ⟨3, ![1, 512, 1024]⟩
abbrev S512x64 : Shape := ⟨2, ![512, 64]⟩
abbrev S512x1024 : Shape := ⟨2, ![512, 1024]⟩
abbrev S2x16x2048x4095 : Shape := ⟨4, ![2, 16, 2048, 4095]⟩

abbrev nBuf : Space → Nat
  | .hbm => 21
  | .vmem => 6
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S12x64, .f32⟩
  | .hbm, ⟨3, _⟩ => ⟨S4095, .i32⟩
  | .hbm, ⟨4, _⟩ => ⟨S_, .i32⟩
  | .hbm, ⟨5, _⟩ => ⟨S4095, .i32⟩
  | .hbm, ⟨6, _⟩ => ⟨S4095, .i32⟩
  | .hbm, ⟨7, _⟩ => ⟨S12, .i32⟩
  | .hbm, ⟨8, _⟩ => ⟨S4095x1, .i32⟩
  | .hbm, ⟨9, _⟩ => ⟨S1x12, .i32⟩
  | .hbm, ⟨10, _⟩ => ⟨S4095x12, .i32⟩
  | .hbm, ⟨11, _⟩ => ⟨S4095x12, .i32⟩
  | .hbm, ⟨12, _⟩ => ⟨S4095x12, .i32⟩
  | .hbm, ⟨13, _⟩ => ⟨S_, .i32⟩
  | .hbm, ⟨14, _⟩ => ⟨S4095x12, .i32⟩
  | .hbm, ⟨15, _⟩ => ⟨S4095x12, .i32⟩
  | .hbm, ⟨16, _⟩ => ⟨S4095x12, .f32⟩
  | .hbm, ⟨17, _⟩ => ⟨S4095x64, .f32⟩
  | .hbm, ⟨18, _⟩ => ⟨S32x2048x64, .f32⟩
  | .hbm, ⟨19, _⟩ => ⟨S32x2048x4095, .f32⟩
  | .hbm, ⟨20, _⟩ => ⟨S2x16x2048x4095, .f32⟩
  | .local _ .vmem, ⟨0, _⟩ => ⟨S1x512x64, .f32⟩
  | .local _ .vmem, ⟨1, _⟩ => ⟨S1x512x64, .f32⟩
  | .local _ .vmem, ⟨2, _⟩ => ⟨S1024x64, .f32⟩
  | .local _ .vmem, ⟨3, _⟩ => ⟨S1024x64, .f32⟩
  | .local _ .vmem, ⟨4, _⟩ => ⟨S1x512x1024, .f32⟩
  | .local _ .vmem, ⟨5, _⟩ => ⟨S1x512x1024, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  bcast_S_S4095 : S_.BroadcastsInDim S4095 (![] : Fin 0 → Fin S4095.rank)
  bcast_S4095_S4095x1_0 : S4095.BroadcastsInDim S4095x1 (![0] : Fin 1 → Fin S4095x1.rank)
  bcast_S12_S1x12_1 : S12.BroadcastsInDim S1x12 (![1] : Fin 1 → Fin S1x12.rank)
  bcast_S4095x1_S4095x12_0_1 : S4095x1.BroadcastsInDim S4095x12 (![0, 1] : Fin 2 → Fin S4095x12.rank)
  bcast_S1x12_S4095x12_0_1 : S1x12.BroadcastsInDim S4095x12 (![0, 1] : Fin 2 → Fin S4095x12.rank)
  bcast_S_S4095x12 : S_.BroadcastsInDim S4095x12 (![] : Fin 0 → Fin S4095x12.rank)
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S32x2048x4095_S2x16x2048x4095 : S32x2048x4095.ShapeCasts S2x16x2048x4095
  dot_S4095x12_S12x64_S4095x64_1_0_0_1_n_n_wf : DotDims.WF S4095x12 S12x64 S4095x64 [1] [0] [0] [1] [] []
  dot_S512x64_S1024x64_S512x1024_1_1_0_0_n_n_wf : DotDims.WF S512x64 S1024x64 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x64.size a < S4095x64.size a
  hwx0_1 : ∀ i : grid0.Coords, EltTy.bits .f32 = 32 ∨ (Rect.unit (s := S4095x64) (fun a => cc0_transform_1 i a * S1024x64.size a) (fun a => (Pipeline.Clip.of (cc0_transform_1 i a) (S1024x64.size a) (S4095x64.size a)).extent (S1024x64.size a)) fun a => Pipeline.Clip.inb (Pipeline.Clip.ok_of (hstart0_1 i a))).WholeWords (EltTy.packing .f32)
  hwxs0_1 : ∀ i : grid0.Coords, EltTy.bits .f32 = 32 ∨ (Rect.unit (s := S1024x64) (fun _ => 0) (fun a => (Pipeline.Clip.of (cc0_transform_1 i a) (S1024x64.size a) (S4095x64.size a)).extent (S1024x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512x1024.size a < S32x2048x4095.size a
  hwx0_2 : ∀ i : grid0.Coords, EltTy.bits .f32 = 32 ∨ (Rect.unit (s := S32x2048x4095) (fun a => cc0_transform_2 i a * S1x512x1024.size a) (fun a => (Pipeline.Clip.of (cc0_transform_2 i a) (S1x512x1024.size a) (S32x2048x4095.size a)).extent (S1x512x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x512x1024) (fun _ => 0) (fun a => (Pipeline.Clip.of (cc0_transform_2 i a) (S1x512x1024.size a) (S32x2048x4095.size a)).extent (S1x512x1024.size a)) fun a => (Nat.zero_add _).trans_le (Pipeline.Clip.extent_le (Pipeline.Clip.ok_of (hstart0_2 i a)))).WholeWords (EltTy.packing .f32)

variable [Facts₀]

def dot_S4095x12_S12x64_S4095x64_1_0_0_1_n_n : DotDims S4095x12 S12x64 S4095x64 where
  lhsContracting := [1]
  rhsContracting := [0]
  lhsNonContracting := [0]
  rhsNonContracting := [1]
  lhsBatch := []
  rhsBatch := []
  wf := dot_S4095x12_S12x64_S4095x64_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf

abbrev win0_0 : Pipeline.Window sig grid0 :=
  Pipeline.Window.ofSpec (Memref.whole main_v13) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v12) S1024x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v14) S1x512x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S12x64 : Shape := ⟨2, ![12, 64]⟩
abbrev S4095 : Shape := ⟨1, ![4095]⟩
abbrev S_ : Shape := ⟨0, ![]⟩
abbrev S12 : Shape := ⟨1, ![12]⟩
abbrev S4095x1 : Shape := ⟨2, ![4095, 1]⟩
abbrev S1x12 : Shape := ⟨2, ![1, 12]⟩
abbrev S4095x12 : Shape := ⟨2, ![4095, 12]⟩
abbrev S4095x64 : Shape := ⟨2, ![4095, 64]⟩
abbrev S2x16x2048x4095 : Shape := ⟨4, ![2, 16, 2048, 4095]⟩

abbrev nBuf : Space → Nat
  | .hbm => 19
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S12x64, .f32⟩
  | .hbm, ⟨3, _⟩ => ⟨S4095, .i32⟩
  | .hbm, ⟨4, _⟩ => ⟨S_, .i32⟩
  | .hbm, ⟨5, _⟩ => ⟨S4095, .i32⟩
  | .hbm, ⟨6, _⟩ => ⟨S4095, .i32⟩
  | .hbm, ⟨7, _⟩ => ⟨S12, .i32⟩
  | .hbm, ⟨8, _⟩ => ⟨S4095x1, .i32⟩
  | .hbm, ⟨9, _⟩ => ⟨S1x12, .i32⟩
  | .hbm, ⟨10, _⟩ => ⟨S4095x12, .i32⟩
  | .hbm, ⟨11, _⟩ => ⟨S4095x12, .i32⟩
  | .hbm, ⟨12, _⟩ => ⟨S4095x12, .i32⟩
  | .hbm, ⟨13, _⟩ => ⟨S_, .i32⟩
  | .hbm, ⟨14, _⟩ => ⟨S4095x12, .i32⟩
  | .hbm, ⟨15, _⟩ => ⟨S4095x12, .i32⟩
  | .hbm, ⟨16, _⟩ => ⟨S4095x12, .f32⟩
  | .hbm, ⟨17, _⟩ => ⟨S4095x64, .f32⟩
  | .hbm, ⟨18, _⟩ => ⟨S2x16x2048x4095, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  bcast_S_S4095 : S_.BroadcastsInDim S4095 (![] : Fin 0 → Fin S4095.rank)
  bcast_S4095_S4095x1_0 : S4095.BroadcastsInDim S4095x1 (![0] : Fin 1 → Fin S4095x1.rank)
  bcast_S12_S1x12_1 : S12.BroadcastsInDim S1x12 (![1] : Fin 1 → Fin S1x12.rank)
  bcast_S4095x1_S4095x12_0_1 : S4095x1.BroadcastsInDim S4095x12 (![0, 1] : Fin 2 → Fin S4095x12.rank)
  bcast_S1x12_S4095x12_0_1 : S1x12.BroadcastsInDim S4095x12 (![0, 1] : Fin 2 → Fin S4095x12.rank)
  bcast_S_S4095x12 : S_.BroadcastsInDim S4095x12 (![] : Fin 0 → Fin S4095x12.rank)
  dot_S4095x12_S12x64_S4095x64_1_0_0_1_n_n_wf : DotDims.WF S4095x12 S12x64 S4095x64 [1] [0] [0] [1] [] []
  dot_S2x16x2048x64_S4095x64_S2x16x2048x4095_3_1_012_0_n_n_wf : DotDims.WF S2x16x2048x64 S4095x64 S2x16x2048x4095 [3] [1] [0, 1, 2] [0] [] []

variable [Facts₀]

def dot_S4095x12_S12x64_S4095x64_1_0_0_1_n_n : DotDims S4095x12 S12x64 S4095x64 where
  lhsContracting := [1]
  rhsContracting := [0]
  lhsNonContracting := [0]
  rhsNonContracting := [1]
  lhsBatch := []
  rhsBatch := []
  wf := dot_S4095x12_S12x64_S4095x64_1_0_0_1_n_n_wf
def dot_S2x16x2048x64_S4095x64_S2x16x2048x4095_3_1_012_0_n_n : DotDims S2x16x2048x64 S4095x64 S2x16x2048x4095 where
  lhsContracting := [3]
  rhsContracting := [1]
  lhsNonContracting := [0, 1, 2]
  rhsNonContracting := [0]
  lhsBatch := []
  rhsBatch := []
  wf := dot_S2x16x2048x64_S4095x64_S2x16x2048x4095_3_1_012_0_n_n_wf

class Facts : Prop extends Facts₀ where

variable [Facts]
-- ==== Proof.KernelBody.lean ====
/-
  The kernel body of the relative-score product, on whole staging buffers.

  One grid point multiplies a [512, 64] block of queries by the transpose of a [1024, 64] block of the
  relative-position table: the body loads both staging buffers whole, rounds both to the narrow format,
  contracts the last axis of both into a zero accumulator, and stores the [512, 1024] product over the
  whole of the result's staging buffer (which it also loads, and ignores).  Stated here, for any float
  instance: run on whole buffers holding `x0` and `x1`, the body leaves them as they were and the
  result's buffer at `scoreBlock x0 x1`, the product as one pure term of the two loads.
-/
import proofs.«181769_j53077205844632_1_alg».proof.Proof.Gen.Kernel.Frame
import proofs.«181769_j53077205844632_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses: each staging buffer whole, at offset zero. -/
abbrev rQ : Rect S1x512x64 := Rect.unit (s := S1x512x64) ![0, 0, 0] S1x512x64.size inb_S1x512x64_S1x512x64_0_0_0
abbrev rR : Rect S1024x64 := Rect.unit (s := S1024x64) ![0, 0] S1024x64.size inb_S1024x64_S1024x64_0_0
abbrev rO : Rect S1x512x1024 := Rect.unit (s := S1x512x1024) ![0, 0, 0] S1x512x1024.size inb_S1x512x1024_S1x512x1024_0_0_0

theorem zero3 : (![0, 0, 0] : Fin 3 → Nat) = fun _ => 0 := funext fun a => by fin_cases a <;> rfl
theorem zero2 : (![0, 0] : Fin 2 → Nat) = fun _ => 0 := funext fun a => by fin_cases a <;> rfl

/-- What the one store leaves in the result's staging buffer, as the list of its pieces. -/
def stored (x0 : Vec F S1x512x64 .f32) (x1 : Vec F S1024x64 .f32) : Vec F S1x512x1024 .f32 :=
  View.canon [⟨rO, k0_pay1 (View.ld x0 rQ) (View.ld x1 rR)⟩]

/-- The store is of the whole buffer and the loads read whole buffers: the buffer ends at the product of the
    two contents. -/
theorem stored_eq (x0 : Vec F S1x512x64 .f32) (x1 : Vec F S1024x64 .f32) : stored x0 x1 = k0_pay1 x0 x1 := by
  unfold stored
  rw [View.canon_unit_zero zero3, View.ld_unit_zero zero3, View.ld_unit_zero zero2]

theorem covered (p0 : Vec F S1x512x1024 .f32) (y : S1x512x1024.Idx) :
    ∃ pc ∈ ([⟨rO, p0⟩] : List (View.Piece (Elt F) S1x512x1024 .f32)), y ∈ pc.1.set :=
  ⟨_, List.mem_singleton_self _, View.mem_set_unit_zero zero3 inb_S1x512x1024_S1x512x1024_0_0_0 y⟩

set_option maxHeartbeats 1000000 in
/-- The body on whole staging memrefs: the two inputs' at contents `x0`, `x1`, the result's at anything, runs to the
    continuation holding the inputs' as they were and the result's at the product. -/
theorem sound_kernel (c : Dev nD) (E : Set ℕ) (i : grid0.Coords)
    (arg3 : Memref sig .tc .vmem S1x512x64 .f32) (harg3 : arg3.IsWhole)
    (arg4 : Memref sig .tc .vmem S1024x64 .f32) (harg4 : arg4.IsWhole)
    (arg5 : Memref sig .tc .vmem S1x512x1024 .f32) (harg5 : arg5.IsWhole)
    (x0 : Vec F S1x512x64 .f32) (x1 : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (k0_pay1 x0 x1)) -∗ K ⟨⟩))
      ⊢ wp frame (wpE (defs₀ (F := F)) Variants.none c none) E (cc0__matmul_kernel i arg3 harg3 arg4 harg4 arg5 harg5) K := by
  rw [← stored_eq]
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered _)

end Cert.Kernel.Body

end
-- ==== Proof.KernelFrame.lean ====
/-
  The frame of the word-level program: it runs to the end, faults nowhere and leaves its three arguments as launched.

  At bit patterns an entry of the matrix unit's product is not a function of one row of each operand alone, so
  nothing can be said of the columns a cut write-back moves once the table buffer's last row holds unnamed words.
  The frame does not need it: the result window is FORGOTTEN — handed to the body at any contents and taken back at
  any contents — and what the run then states is that every buffer outside the pipeline's three arrays, the
  reshaped result apart, ends as the region found it; the arguments are among those, and no host line writes them.
-/
import proofs.«181769_j53077205844632_1_alg».proof.Proof.KernelBody
import proofs.«181769_j53077205844632_1_alg».proof.Proof.Gen.Kernel.Points

set_option maxRecDepth 16384

noncomputable section

namespace Cert.Kernel.Data

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's block at point `t` filled out to the staging buffer's shape: past the table's last row, a zero word. -/
def tableBlock (c : Dev nD) (t : Fin cfg0.N) : S1024x64.Idx → Elt F .f32 :=
  win0_1.fill (grid0.coords t) (fun _ => Scalar.ofBits .f32 0#32) (iblk m c 1 t)

/-- The result window is forgotten; the two inputs are not. -/
def forget : Fin cfg0.W → Bool := fun w => match w with
  | ⟨0, _⟩ => false
  | ⟨1, _⟩ => false
  | ⟨2, _⟩ => true

/-- The proof data: the arrays as the region finds them; after the body the query buffer at its block, the table
    buffer at its filled-out block; the result buffer's entry is never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tableBlock m c t
    | ⟨2, _⟩ => k0_pay1 (iblk m c 0 t) (tableBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_r (c : Dev nD) (t : Fin cfg0.N) : (dats m 0 c).after 1 t = tableBlock m c t := by dsimp only [dats]

/-- The query buffer holds its block at every point, fetched there or not. -/
theorem before_q (c : Dev nD) (t : Fin cfg0.N) (d) : (dats m 0 c).before 0 t d = iblk m c 0 t :=
  before0_0_of m (dats m 0 c) (A_eq m c 0) (after_q m c) t d

/-- The table buffer was just fetched: its block on the rows inside the table, `d` past them. -/
theorem before_r (c : Dev nD) (t : Fin cfg0.N) (d) :
    (dats m 0 c).before 1 t d = win0_1.fill (grid0.coords t) d (iblk m c 1 t) := by
  unfold Dat.before; rw [if_pos (fetch0_1 t)]; rfl

/-! ## The body obligation -/

/-- What the body is called with at point `t`: the result buffer at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- and what it returns: the query buffer whole, the table's on the part its fetch moves, the result's at anything. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ X, owns (c : Thread nD τ) (st0_2 t) fullShare X))

/-- The body at any point: the table buffer is handed back as found, the result buffer at whatever the product is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_r]
  rw [show (dats m 0 c).Φ t.succ = (dats m 0 c).Φ t.castSucc from rfl,
    show (dats m 0 c).owesAt () t.succ = (dats m 0 c).owesAt () t.castSucc from rfl,
    after_q, after_r]
  iintro ⟨HΦ, Ho, ⟨%d0, H0⟩, ⟨%d1, H1⟩, ⟨%d2, H2⟩⟩
  iapply (sound_kernel c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : win0_1.cut (grid0.coords t) (tableBlock m c t) = iblk m c 1 t := win0_1.cut_fill _ _ _
    change _ ⊢ owns (c : Thread nD τ) (st0_1 t) fullShare
      (win0_1.fill (grid0.coords t) d1 (win0_1.cut (grid0.coords t) (tableBlock m c t)))
    rw [e]; try iexact H1
  · iexists _; iexact H2

/-- The library's body obligation with the result window forgotten, at every point. -/
theorem body_obligation (c : Dev nD) :
    BodyObligationLoose (dats (F := F) m 0 c) (defs₀ (F := F)) Variants.none () Set.univ forget := fun t => by
  rw [bigSep_W0, bigSep_W0]
  exact sound_body m c t

/-! ## The run and the frame -/

/-- The one buffer the line after the region writes: the reshaped result. -/
def written : Finset (Ref sig .tc) := {main_v15}

theorem tail_writes : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of @main terminates, and every unscoped buffer that is no array of the pipeline and
    not the reshaped result ends as the region found it. -/
theorem run_main :
    θ_run defs (onTc (τ := τ) (main (F := F))) (s₀ m ρ)
      (Pipeline.RDat.FramePostR (cfgs 0) (fun c => (dats m 0 c).toRForget forget) written (V m)) :=
  Pipeline.RDat.θ_run_frame_around_T cfgs (0 : Fin 1) launch0 defs₀ Variants.none (fun c => (dats m 0 c).toRForget forget) written m ρ main
    (hbody := fun c => (body_obligation m c).toRForget) (hshare := fun c => ((dats m 0 c).toRForget forget).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- The frame: the argument arrays are no array of the pipeline, the line after the region does not write them, and
    no host line before the region does either. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c)⟩)
    (run_main m ρ)

end Cert.Kernel.Data

end
-- ==== Proof.IdealBody.lean ====
/-
  The kernel body of the relative-score product, on whole staging buffers.

  One grid point multiplies a [512, 64] block of queries by the transpose of a [1024, 64] block of the
  relative-position table: the body loads both staging buffers whole, rounds both to the narrow format,
  contracts the last axis of both into a zero accumulator, and stores the [512, 1024] product over the
  whole of the result's staging buffer (which it also loads, and ignores).  Stated here, for any float
  instance: run on whole buffers holding `x0` and `x1`, the body leaves them as they were and the
  result's buffer at `scoreBlock x0 x1`, the product as one pure term of the two loads.
-/
import proofs.«181769_j53077205844632_1_alg».proof.Proof.Gen.KernelIdeal.Frame
import proofs.«181769_j53077205844632_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses: each staging buffer whole, at offset zero. -/
abbrev rQ : Rect S1x512x64 := Rect.unit (s := S1x512x64) ![0, 0, 0] S1x512x64.size inb_S1x512x64_S1x512x64_0_0_0
abbrev rR : Rect S1024x64 := Rect.unit (s := S1024x64) ![0, 0] S1024x64.size inb_S1024x64_S1024x64_0_0
abbrev rO : Rect S1x512x1024 := Rect.unit (s := S1x512x1024) ![0, 0, 0] S1x512x1024.size inb_S1x512x1024_S1x512x1024_0_0_0

theorem zero3 : (![0, 0, 0] : Fin 3 → Nat) = fun _ => 0 := funext fun a => by fin_cases a <;> rfl
theorem zero2 : (![0, 0] : Fin 2 → Nat) = fun _ => 0 := funext fun a => by fin_cases a <;> rfl

/-- What the one store leaves in the result's staging buffer, as the list of its pieces. -/
def stored (x0 : Vec F S1x512x64 .f32) (x1 : Vec F S1024x64 .f32) : Vec F S1x512x1024 .f32 :=
  View.canon [⟨rO, k0_pay1 (View.ld x0 rQ) (View.ld x1 rR)⟩]

/-- The store is of the whole buffer and the loads read whole buffers: the buffer ends at the product of the
    two contents. -/
theorem stored_eq (x0 : Vec F S1x512x64 .f32) (x1 : Vec F S1024x64 .f32) : stored x0 x1 = k0_pay1 x0 x1 := by
  unfold stored
  rw [View.canon_unit_zero zero3, View.ld_unit_zero zero3, View.ld_unit_zero zero2]

theorem covered (p0 : Vec F S1x512x1024 .f32) (y : S1x512x1024.Idx) :
    ∃ pc ∈ ([⟨rO, p0⟩] : List (View.Piece (Elt F) S1x512x1024 .f32)), y ∈ pc.1.set :=
  ⟨_, List.mem_singleton_self _, View.mem_set_unit_zero zero3 inb_S1x512x1024_S1x512x1024_0_0_0 y⟩

set_option maxHeartbeats 1000000 in
/-- The body on whole staging memrefs: the two inputs' at contents `x0`, `x1`, the result's at anything, runs to the
    continuation holding the inputs' as they were and the result's at the product. -/
theorem sound_kernel (c : Dev nD) (E : Set ℕ) (i : grid0.Coords)
    (arg3 : Memref sig .tc .vmem S1x512x64 .f32) (harg3 : arg3.IsWhole)
    (arg4 : Memref sig .tc .vmem S1024x64 .f32) (harg4 : arg4.IsWhole)
    (arg5 : Memref sig .tc .vmem S1x512x1024 .f32) (harg5 : arg5.IsWhole)
    (x0 : Vec F S1x512x64 .f32) (x1 : Vec F S1024x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (k0_pay1 x0 x1)) -∗ K ⟨⟩))
      ⊢ wp frame (wpE (defs₀ (F := F)) Variants.none c none) E (cc0__matmul_kernel i arg3 harg3 arg4 harg4 arg5 harg5) K := by
  rw [← stored_eq]
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covered _)

end Cert.KernelIdeal.Body

end
-- ==== Proof.IdealData.lean ====
/-
  The proof data of the one pipeline, for any float instance, and the frame run.

  The grid is 32 x 4 x 4, innermost axis last.  The query window (a [1, 512, 64] block, moving with the first two
  axes) is fetched every fourth point and tiles its array.  The table window (a [1024, 64] block of the [4095, 64]
  table, moving with the last axis) is fetched at every point; its fourth block overhangs the table by one row,
  and after such a fetch the last row of the staging buffer holds words nothing names.  The result window
  (a [1, 512, 1024] block of [32, 2048, 4095]) is written back at every point, cut at the array's last column.

  After the body the query buffer holds its block, the table buffer its block filled out with a word of the
  proof's choosing, the result buffer the product of those two: the body obligation states the last two only on
  the part inside the arrays, and that part of the product does not depend on the filler as soon as a column of
  the product reads only the matching row of the table block (`ColumnLocal`).
-/
import proofs.«181769_j53077205844632_1_alg».proof.Proof.IdealBody
import proofs.«181769_j53077205844632_1_alg».proof.Proof.Gen.KernelIdeal.Points

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's block at point `t` filled out to the staging buffer's shape: past the table's last row, a zero word. -/
def tableBlock (c : Dev nD) (t : Fin cfg0.N) : S1024x64.Idx → Elt F .f32 :=
  win0_1.fill (grid0.coords t) (fun _ => Scalar.ofBits .f32 0#32) (iblk m c 1 t)

/-- The part inside the array of a product's block does not depend on what lies past the table's last row. -/
def ColumnLocal (c : Dev nD) : Prop :=
  ∀ (t : Fin cfg0.N) (d : S1024x64.Idx → Elt F .f32),
    win0_2.cut (grid0.coords t) (k0_pay1 (iblk m c 0 t) (win0_1.fill (grid0.coords t) d (iblk m c 1 t)))
      = win0_2.cut (grid0.coords t) (k0_pay1 (iblk m c 0 t) (tableBlock m c t))

/-- The proof data: the arrays as the region finds them; after the body the query buffer at its block, the table
    buffer at its filled-out block, the result buffer at their product; the class invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tableBlock m c t
    | ⟨2, _⟩ => k0_pay1 (iblk m c 0 t) (tableBlock m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_r (c : Dev nD) (t : Fin cfg0.N) : (dats m 0 c).after 1 t = tableBlock m c t := by dsimp only [dats]
theorem after_o (c : Dev nD) (t : Fin cfg0.N) :
    (dats m 0 c).after 2 t = k0_pay1 (iblk m c 0 t) (tableBlock m c t) := by dsimp only [dats]

/-- The query buffer holds its block at every point, fetched there or not. -/
theorem before_q (c : Dev nD) (t : Fin cfg0.N) (d) : (dats m 0 c).before 0 t d = iblk m c 0 t :=
  before0_0_of m (dats m 0 c) (A_eq m c 0) (after_q m c) t d

/-- The table buffer was just fetched: its block on the rows inside the table, `d` past them. -/
theorem before_r (c : Dev nD) (t : Fin cfg0.N) (d) :
    (dats m 0 c).before 1 t d = win0_1.fill (grid0.coords t) d (iblk m c 1 t) := by
  unfold Dat.before; rw [if_pos (fetch0_1 t)]; rfl

/-- The result buffer holds contents nothing names: the point before wrote its block back. -/
theorem before_o (c : Dev nD) (t : Fin cfg0.N) (d) : (dats m 0 c).before 2 t d = d := by
  unfold Dat.before
  rw [if_neg (show ¬((cfg0.win 2).fetch t = true) from by unfold Window.fetch; simp)]
  by_cases h0 : t.val = 0
  · rw [if_pos h0]
  · rw [if_neg h0]; exact if_pos (flush0_2 _)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the query buffer whole, the table's and the result's on the part their transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point. The table buffer is handed back as found: its block inside the table, the found filler
    past it. The result buffer holds the product of what was found, which inside the array is the product of the
    named blocks (`ColumnLocal`). -/
theorem sound_body (c : Dev nD) (hloc : ColumnLocal m c) (t : Fin cfg0.N) :
    bodyPre m c t ⊢ wp frame (wpE (defs₀ (F := F)) Variants.none c none) Set.univ (bodyAt0 t) (fun _ => bodyPost m c t) := by
  unfold bodyPre bodyPost bodyAt0
  simp only [before_q, before_r, before_o]
  rw [show (dats m 0 c).Φ t.succ = (dats m 0 c).Φ t.castSucc from rfl,
    show (dats m 0 c).owesAt () t.succ = (dats m 0 c).owesAt () t.castSucc from rfl,
    after_q, after_r, after_o]
  iintro ⟨HΦ, Ho, ⟨%d0, H0⟩, ⟨%d1, H1⟩, ⟨%d2, H2⟩⟩
  iapply (sound_kernel c Set.univ (grid0.coords t) _ _ _ _ _ _ (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    have e : win0_1.cut (grid0.coords t) (tableBlock m c t) = iblk m c 1 t := win0_1.cut_fill _ _ _
    change _ ⊢ owns (c : Thread nD τ) (st0_1 t) fullShare
      (win0_1.fill (grid0.coords t) d1 (win0_1.cut (grid0.coords t) (tableBlock m c t)))
    rw [e]; try iexact H1
  · iexists (k0_pay1 (iblk m c 0 t) (win0_1.fill (grid0.coords t) d1 (iblk m c 1 t)))
    have e : win0_2.fill (α := Elt F .f32) (grid0.coords t) (k0_pay1 (iblk m c 0 t) (win0_1.fill (grid0.coords t) d1 (iblk m c 1 t)))
        (win0_2.cut (α := Elt F .f32) (grid0.coords t) (k0_pay1 (iblk m c 0 t) (tableBlock m c t)))
        = k0_pay1 (iblk m c 0 t) (win0_1.fill (grid0.coords t) d1 (iblk m c 1 t)) := by
      rw [← hloc t d1]; exact win0_2.fill_cut (α := Elt F .f32) _ _
    change _ ⊢ owns (c : Thread nD τ) (st0_2 t) fullShare
      (win0_2.fill (α := Elt F .f32) (grid0.coords t) (k0_pay1 (iblk m c 0 t) (win0_1.fill (grid0.coords t) d1 (iblk m c 1 t)))
        (win0_2.cut (α := Elt F .f32) (grid0.coords t) (k0_pay1 (iblk m c 0 t) (tableBlock m c t))))
    rw [e]; try iexact H2

/-- The library's body obligation, at every point. -/
theorem body_obligation (c : Dev nD) (hloc : ColumnLocal m c) :
    BodyObligationLoose (dats (F := F) m 0 c) (defs₀ (F := F)) Variants.none () Set.univ := fun t => by
  rw [bigSep_W0, bigSep_W0]
  exact sound_body m c hloc t

/-! ## The run and the frame -/

set_option backward.isDefEq.respectTransparency.types false in
/-- Every weakly fair execution of @main terminates, every array of the pipeline ends at what the library computes
    from the proof data, every other unscoped buffer as the line after the region leaves it. -/
theorem run_main (hloc : ∀ c, ColumnLocal m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c (hloc c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as launched. -/
theorem frame (hloc : ∀ c, ColumnLocal m c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ hloc)

end Cert.KernelIdeal.Data

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.IdealScore.lean ====
/-
  The product block over the extended reals, entry by entry, and why its part inside the array does not see
  the table buffer's last row.

  Over the extended reals a change of float format is the identity and the matrix unit's contraction into the
  zero array is the plain sum: entry (p, q) of the [512, 1024] block is the sum over the 64 coordinates k of
  query[p, k] * table[q, k].  Column q therefore reads row q of the table buffer only; a column inside the result
  array (block column q with 1024 * mi + q < 4095) is a row inside the table (the two windows are cut alike
  along this axis), where the table buffer holds the table's own row whatever fills the buffer past the end.
-/
import proofs.«181769_j53077205844632_1_alg».proof.Proof.IdealData
import proofs.«181769_j53077205844632_1_alg».proof.Proof.LibDotRows
import Idealize.ShloMosaic.Lib.ValueIdx
import Idealize.ShloMosaic.Lib.Pipeline.Value
import Idealize.ShloMosaic.PureOps.Ideal.Laws

set_option maxRecDepth 16384

noncomputable section

namespace Cert.KernelIdeal.Score

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A [1, 512, 64] block viewed [512, 64], at (p, k). -/
theorem queryRows_apply (x0 : Vec Ideal S1x512x64 .f32) (p : Fin 512) (k : Fin 64) :
    shapeCast S512x64 x0 shapeCasts_S1x512x64_S512x64 (ix2 p k) = x0 (ix3 0 p k) := by
  refine (shapeCast_dropUnit_apply ![512, 64] x0 shapeCasts_S1x512x64_S512x64 (ix2 p k)).trans ?_
  congr 1
  funext a; match a with | ⟨0, _⟩ => rfl | ⟨1, _⟩ => rfl | ⟨2, _⟩ => rfl

/-- Entry (p, q) of the product block: the inner product of row p of the query block and row q of the table
    block. -/
theorem scoreBlock_apply (x0 : Vec Ideal S1x512x64 .f32) (x1 : Vec Ideal S1024x64 .f32)
    (u : Fin 1) (p : Fin 512) (q : Fin 1024) :
    k0_pay1 (F := Ideal) x0 x1 (ix3 u p q) = ∑ k : Fin 64, x0 (ix3 0 p k) * x1 (ix2 q k) := by
  unfold k0_pay1
  refine (shapeCast_addUnit_apply ![512, 1024] _ shapeCasts_S512x1024_S1x512x1024 (ix3 u p q)).trans ?_
  have e : (fun a : Fin 2 => (ix3 u p q : S1x512x1024.Idx) a.succ) = ix2 p q := by
    funext a; match a with | ⟨0, _⟩ => rfl | ⟨1, _⟩ => rfl
  refine (congrArg _ e).trans ?_
  refine (Cert.Lib.DotRows.matmul_rows_apply _ rfl none _ _ p q).trans ?_
  refine Finset.sum_congr rfl fun k _ => ?_
  show shapeCast S512x64 x0 shapeCasts_S1x512x64_S512x64 (ix2 p k)
      * shapeCast S1024x64 x1 shapeCasts_S1024x64_S1024x64 (ix2 q k) = _
  rw [queryRows_apply, shapeCast_self]

/-- Two table blocks that agree on row q give products that agree on column q. -/
theorem score_congr (x0 : Vec Ideal S1x512x64 .f32) (x1 x1' : Vec Ideal S1024x64 .f32)
    (u : Fin 1) (p : Fin 512) (q : Fin 1024) (h : ∀ k : Fin 64, x1 (ix2 q k) = x1' (ix2 q k)) :
    k0_pay1 (F := Ideal) x0 x1 (ix3 u p q) = k0_pay1 (F := Ideal) x0 x1' (ix3 u p q) := by
  rw [scoreBlock_apply, scoreBlock_apply]
  exact Finset.sum_congr rfl fun k _ => by rw [h k]

/-- The table window is cut on its first axis only: every one of the 64 coordinates of a row is moved. -/
theorem table_moved (i : grid0.Coords) (q : Fin 1024) (k : Fin 64) (hq : q.val < win0_1.xsize i 0) :
    win0_1.moved i (ix2 q k) = true :=
  (win0_1.moved_iff i _).mpr fun a => by
    match a with
    | ⟨0, _⟩ => exact hq
    | ⟨1, _⟩ => exact (show k.val < 64 from k.isLt)

/-- A filled table block read at a row the fetch moved is the block's row, whatever the filler. -/
theorem fill_row (i : grid0.Coords) (d d' : S1024x64.Idx → Elt Ideal .f32) (g : (win0_1.xblock i).Idx → Elt Ideal .f32)
    (q : Fin 1024) (k : Fin 64) (hq : q.val < win0_1.xsize i 0) :
    win0_1.fill i d g (ix2 q k) = win0_1.fill i d' g (ix2 q k) := by
  have hm := table_moved i q k hq
  unfold Window.fill; rw [dif_pos hm, dif_pos hm]

/-- The result window's cut along its last axis is the table window's along its first. -/
theorem cut_alike (i : grid0.Coords) : win0_2.xsize i 2 = win0_1.xsize i 0 := rfl

/-- The part inside the array of the product does not depend on what fills the table buffer past the table's end. -/
theorem columnLocal (m : (ℓ : Loc nD τ sig) → Buf (Elt Ideal) ℓ) (c : Dev nD) : Data.ColumnLocal m c := by
  intro t d
  funext y
  have hy : (y 2).val < win0_1.xsize (grid0.coords t) 0 := (cut_alike (grid0.coords t)) ▸ (y 2).isLt
  show k0_pay1 (F := Ideal) (iblk m c 0 t) (win0_1.fill (grid0.coords t) d (iblk m c 1 t)) (win0_2.xinj (grid0.coords t) y)
     = k0_pay1 (F := Ideal) (iblk m c 0 t) (Data.tableBlock m c t) (win0_2.xinj (grid0.coords t) y)
  rw [eq_ix3 (win0_2.xinj (grid0.coords t) y)]
  exact score_congr (iblk m c 0 t) (win0_1.fill (grid0.coords t) d (iblk m c 1 t)) (Data.tableBlock m c t)
    (win0_2.xinj (grid0.coords t) y 0) (win0_2.xinj (grid0.coords t) y 1) (win0_2.xinj (grid0.coords t) y 2)
    fun k => (fill_row (grid0.coords t) d _ (iblk m c 1 t) (win0_2.xinj (grid0.coords t) y 2) k hy :
      _ = Data.tableBlock m c t (ix2 (win0_2.xinj (grid0.coords t) y 2) k))

end Cert.KernelIdeal.Score

end
-- ==== Proof.IdealValue.lean ====
/-
  The result array after the run, as one function of the two arrays the region reads.

  Point t = 16 * bh + 4 * li + mi multiplies rows 512 * li .. 512 * li + 511 of query matrix bh by rows
  1024 * mi .. of the table and writes the columns of that product that lie inside the array back to
  out[bh, 512 * li .., 1024 * mi ..].  Each written entry is therefore out[b, l, j] = sum_k Q[b, l, k] * R[j, k]
  of the whole arrays (`scores`), the 512 blocks cover every index, and so the array ends holding `scores`.
-/
import proofs.«181769_j53077205844632_1_alg».proof.Proof.IdealScore

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Every query row against every table row. -/
def scores (Q : Vec Ideal S32x2048x64 .f32) (R : Vec Ideal S4095x64 .f32) : Vec Ideal S32x2048x4095 .f32 :=
  fun i => ∑ k : Fin 64, Q (ix3 (i 0) (i 1) k) * R (ix2 (i 2) k)

/-- The schedule in closed form: the result window's block index at point t is (t / 16, t / 4 % 4, t % 4), its
    blocks are whole on the first two axes and cut to 1023 columns at the last block column. -/
theorem grid_facts : ∀ t : Fin cfg0.N, win0_2.index t (0 : Fin 3) = t.val / 16 ∧ win0_2.index t (1 : Fin 3) = t.val / 4 % 4
    ∧ win0_2.index t (2 : Fin 3) = t.val % 4
    ∧ win0_2.xsize (grid0.coords t) (0 : Fin 3) = 1 ∧ win0_2.xsize (grid0.coords t) (1 : Fin 3) = 512
    ∧ win0_2.xsize (grid0.coords t) (2 : Fin 3) = (if t.val % 4 = 3 then 1023 else 1024) :=
  (by decide +kernel : ∀ t : Fin grid0.N, _)

/-- The two input windows move with the result window: the query window along the first two axes, the table window
    along the last. -/
theorem moves_with (t : Fin cfg0.N) : win0_0.index t (0 : Fin 3) = win0_2.index t (0 : Fin 3)
    ∧ win0_0.index t (1 : Fin 3) = win0_2.index t (1 : Fin 3) ∧ win0_0.index t (2 : Fin 3) = 0
    ∧ win0_1.index t (0 : Fin 2) = win0_2.index t (2 : Fin 3) ∧ win0_1.index t (1 : Fin 2) = 0 :=
  ⟨rfl, rfl, rfl, rfl, rfl⟩

variable (m : (ℓ : Loc nD τ sig) → Buf (Elt Ideal) ℓ)

/-- WHAT POINT t WRITES BACK is block t of `scores` of the two arrays as the region finds them. -/
theorem flushed_eq (c : Dev nD) (t : Fin cfg0.N) :
    (Data.dats m 0 c).flushed 2 t
      = ((cfg0.win 2).blk t).view.read (Elt Ideal) (scores (V m c main_v13) (V m c main_v12)) := by
  show (cfg0.win 2).cut (grid0.coords t) ((Data.dats m 0 c).after 2 t) = _
  rw [Data.after_o]
  funext y
  obtain ⟨e0, e1, e2, e3, e4⟩ := moves_with t
  have hy0 : (y 0).val < win0_2.xsize (grid0.coords t) (0 : Fin 3) := (y 0).isLt
  have hx0 : win0_2.xsize (grid0.coords t) (0 : Fin 3) ≤ 1 := win0_2.xsize_le (grid0.coords t) 0
  have hy2 : (y 2).val < win0_1.xsize (grid0.coords t) 0 := (Score.cut_alike (grid0.coords t)) ▸ (y 2).isLt
  show k0_pay1 (F := Ideal) (iblk m c 0 t) (Data.tableBlock m c t) (win0_2.xinj (grid0.coords t) y)
     = scores (V m c main_v13) (V m c main_v12) (((cfg0.win 2).blk t).view.emb y)
  rw [eq_ix3 (win0_2.xinj (grid0.coords t) y)]
  refine (Score.scoreBlock_apply (iblk m c 0 t) (Data.tableBlock m c t) (win0_2.xinj (grid0.coords t) y 0)
    (win0_2.xinj (grid0.coords t) y 1) (win0_2.xinj (grid0.coords t) y 2)).trans ?_
  unfold scores
  refine Finset.sum_congr rfl fun k _ => ?_
  refine congrArg₂ (· * ·) ?_ ?_
  · show V m c main_v13 (((cfg0.win 0).blk t).view.emb (ix3 0 (win0_2.xinj (grid0.coords t) y 1) k))
      = V m c main_v13 (ix3 (((cfg0.win 2).blk t).view.emb y 0) (((cfg0.win 2).blk t).view.emb y 1) k)
    refine congrArg (V m c main_v13) ?_
    funext a; apply Fin.ext
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 512 + 1 * (y 1).val = win0_2.index t (1 : Fin 3) * 512 + 1 * (y 1).val
      omega
    | ⟨2, _⟩ =>
      show win0_0.index t (2 : Fin 3) * 64 + 1 * k.val = k.val
      omega
  · have hm := Score.table_moved (grid0.coords t) (win0_2.xinj (grid0.coords t) y 2) k hy2
    unfold Data.tableBlock Window.fill
    rw [dif_pos hm]
    show V m c main_v12 (((cfg0.win 1).blk t).view.emb _) = V m c main_v12 (ix2 (((cfg0.win 2).blk t).view.emb y 2) k)
    refine congrArg (V m c main_v12) ?_
    funext a; apply Fin.ext
    match a with
    | ⟨0, _⟩ =>
      show win0_1.index t (0 : Fin 2) * 1024 + 1 * (y 2).val = win0_2.index t (2 : Fin 3) * 1024 + 1 * (y 2).val
      omega
    | ⟨1, _⟩ =>
      show win0_1.index t (1 : Fin 2) * 64 + 1 * k.val = k.val
      omega

/-- An index of the array is in point t's block iff each coordinate is in the block's range on its axis, the range
    cut at the array's end. -/
theorem mem_blk (t : Fin cfg0.N) (i : S32x2048x4095.Idx) :
    i ∈ ((cfg0.win 2).blk t).view.set ↔ ∀ a : Fin 3, win0_2.index t a * S1x512x1024.size a ≤ (i a).val
      ∧ (i a).val < win0_2.index t a * S1x512x1024.size a + win0_2.xsize (grid0.coords t) a := by
  show i ∈ ((View.whole main_v14).slice (win0_2.rect t)).set ↔ _
  rw [View.set_slice_whole, Rect.mem_set_unit]
  exact Iff.rfl

/-- Every index of the array is in the block of the point (i0, i1 / 512, i2 / 1024). -/
theorem covered (i : S32x2048x4095.Idx) :
    ∃ t : Fin cfg0.N, (cfg0.win 2).flush t = true ∧ i ∈ ((cfg0.win 2).blk t).view.set := by
  have h0 : (i 0).val < 32 := (i 0).isLt
  have h1 : (i 1).val < 2048 := (i 1).isLt
  have h2 : (i 2).val < 4095 := (i 2).isLt
  have hN : cfg0.N = 512 := N_0
  let t : Fin cfg0.N := ⟨(i 0).val * 16 + (i 1).val / 512 * 4 + (i 2).val / 1024, by omega⟩
  have ht : t.val = (i 0).val * 16 + (i 1).val / 512 * 4 + (i 2).val / 1024 := rfl
  obtain ⟨g0, g1, g2, s0, s1, s2⟩ := grid_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + win0_2.xsize (grid0.coords t) (0 : Fin 3)
    omega
  | ⟨1, _⟩ =>
    show win0_2.index t (1 : Fin 3) * 512 ≤ (i 1).val ∧ (i 1).val < win0_2.index t (1 : Fin 3) * 512 + win0_2.xsize (grid0.coords t) (1 : Fin 3)
    omega
  | ⟨2, _⟩ =>
    show win0_2.index t (2 : Fin 3) * 1024 ≤ (i 2).val ∧ (i 2).val < win0_2.index t (2 : Fin 3) * 1024 + win0_2.xsize (grid0.coords t) (2 : Fin 3)
    rw [s2]
    split <;> omega

/-- THE RESULT ARRAY after the run. -/
theorem final (c : Dev nD) :
    (Data.dats m 0 c).arrAt 2 cfg0.N = scores (V m c main_v13) (V m c main_v12) :=
  (Data.dats m 0 c).arrAt_eq_of_cover 2 (scores (V m c main_v13) (V m c main_v12))
    (fun t _ => flushed_eq m c t) covered

end Cert.KernelIdeal.Final

end
-- ==== Proof.IdealHost.lean ====
/-
  What the host lines around the region hold, over the extended reals.

  Before the region the host computes the relative-position table (the sign-extended bits of the positions
  -2047 .. 2047, twelve of them, as floats, times the [12, 64] embedding: `table`) and views the
  [2, 16, 2048, 64] queries as 32 matrices.  After it, the [32, 2048, 4095] result is viewed
  [2, 16, 2048, 4095].  So the program's result is that view of `scores` of the viewed queries and the table.
-/
import proofs.«181769_j53077205844632_1_alg».proof.Proof.IdealValue
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

/-- The relative-position table as the host computes it from the embedding. -/
def table (e : FVec Ideal S12x64 .f32) : FVec Ideal S4095x64 .f32 :=
  Host.dotGeneral dot_S4095x12_S12x64_S4095x64_1_0_0_1_n_n none (sitofp .f32 (andi (Host.shrsi (broadcastInDim S4095x12 ![0, 1] bcast_S4095x1_S4095x12_0_1 (broadcastInDim S4095x1 ![0] bcast_S4095_S4095x1_0 (addi (broadcastInDim S4095 ![] bcast_S_S4095 (constantI S_ 32 4294965249#32)) (iotaInDim S4095 32 0)))) (broadcastInDim S4095x12 ![0, 1] bcast_S1x12_S4095x12_0_1 (broadcastInDim S1x12 ![1] bcast_S12_S1x12_1 (iotaInDim S12 32 0)))) (broadcastInDim S4095x12 ![] bcast_S_S4095x12 (constantI S_ 32 1#32)))) e

variable (m : (ℓ : Loc nD τ sig) → Buf (Elt Ideal) ℓ) (ρ : Dev nD → PrngReg)

/-- The region finds the table in its second array. -/
theorem V_table (c : Dev nD) :
    (V m c main_v12 : S4095x64.Idx → Elt Ideal .f32) = table (m ((c : Thread nD τ).loc main_arg2)) := by
  show StableHlo.after hostOps0 (fun b => m (c, b)) (Proc.devRef .tc main_v12) = _
  after_results
  rfl

/-- The region finds the queries, viewed as 32 matrices, in its first array. -/
theorem V_query (c : Dev nD) :
    (V m c main_v13 : S32x2048x64.Idx → Elt Ideal .f32)
      = shapeCast S32x2048x64 (m ((c : Thread nD τ).loc main_arg0)) shapeCasts_S2x16x2048x64_S32x2048x64 := by
  show StableHlo.after hostOps0 (fun b => m (c, b)) (Proc.devRef .tc main_v13) = _
  after_results
  rfl

/-- The program's result: the view of the result array the line after the region takes. -/
theorem tail_result (c : Dev nD) :
    Pipeline.afterTail₀ cfgs (Data.dats m) 0 (V0 m) [hostOps1] c main_v15
      = shapeCast S2x16x2048x4095 ((Data.dats m 0 c).arrAt 2 cfg0.N) shapeCasts_S32x2048x4095_S2x16x2048x4095 := by
  unfold Pipeline.afterTail₀
  show StableHlo.after hostOps1 _ (Proc.devRef .tc main_v15) = _
  after_results
  exact congrArg (fun A => shapeCast S2x16x2048x4095 A shapeCasts_S32x2048x4095_S2x16x2048x4095)
    (Pipeline.withArrays_arr spec0 launch0.win.arr_inj c _ _ (2 : Fin 3))

/-- The program's result as one function of the queries and the embedding. -/
def result (q : (⟨S2x16x2048x64, .f32⟩ : BufTy).Contents (Elt Ideal)) (e : (⟨S12x64, .f32⟩ : BufTy).Contents (Elt Ideal)) :
    (⟨S2x16x2048x4095, .f32⟩ : BufTy).Contents (Elt Ideal) :=
  shapeCast S2x16x2048x4095
    (Final.scores (shapeCast S32x2048x64 q shapeCasts_S2x16x2048x64_S32x2048x64) (table e))
    shapeCasts_S32x2048x4095_S2x16x2048x4095

/-- The run, read: every weakly fair execution terminates with the result at `result` of the arguments and the
    arguments as launched. -/
theorem run : θ_run defs (onTc (τ := τ) (main (F := Ideal))) ⟨m, fun _ => 0, ρ⟩ fun r => ∀ c : Dev nD,
      r.2.mem ((c.tc : Thread nD τ).loc main_v15)
        = result (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans
        ((tail_result m c).trans (by rw [Final.final m c, V_query m c, V_table m c]; rfl)),
     ((h c).2 main_arg0 (Pipeline.mem_restRefs_of main_arg0 (by decide) (by decide))).trans (W_main_arg0 m (Data.dats m) c),
     ((h c).2 main_arg1 (Pipeline.mem_restRefs_of main_arg1 (by decide) (by decide))).trans (W_main_arg1 m (Data.dats m) c),
     ((h c).2 main_arg2 (Pipeline.mem_restRefs_of main_arg2 (by decide) (by decide))).trans (W_main_arg2 m (Data.dats m) c)⟩)
    (Data.run_main m ρ (Score.columnLocal m))

end Cert.KernelIdeal.Host

end
-- ==== Proof.Bridge.lean ====
/-
  The two programs compute one function.

  Entry (b, h, l, j) of the kernel's result is entry (16 b + h, l, j) of the [32, 2048, 4095] array, the inner
  product of row l of query matrix 16 b + h — row (b, h, l) of the queries as launched — with row j of the
  table.  The reference's contraction of the queries' last axis with the table's last axis is, entry by entry, the
  same sum over the 64 coordinates, against the same table (the host lines that build it are the same text in both
  programs).  No law of the extended reals beyond that is used: nothing is reordered, nothing distributed.
-/
import proofs.«181769_j53077205844632_1_alg».proof.Proof.IdealHost
import proofs.«181769_j53077205844632_1_alg».proof.Proof.Gen.ReferenceIdeal.Read
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.ValueIdx Idealize.SL.Sem

/-- Row-major positions as sums, at indices built from coordinates. -/
theorem pos3 {n0 n1 n2 : Nat} (a : Fin n0) (b : Fin n1) (c : Fin n2) :
    ((⟨3, ![n0, n1, n2]⟩ : Shape).rowMajor (ix3 a b c)).val = (a.val * n1 + b.val) * n2 + c.val :=
  Shape.rowMajor_val_three _
theorem pos4 {n0 n1 n2 n3 : Nat} (j : (⟨4, ![n0, n1, n2, n3]⟩ : Shape).Idx) :
    ((⟨4, ![n0, n1, n2, n3]⟩ : Shape).rowMajor j).val
      = (((j 0).val * n1 + (j 1).val) * n2 + (j 2).val) * n3 + (j 3).val :=
  Shape.rowMajor_val_four _

/-- The matrix a (batch, head) pair names. -/
def mat (b : Fin 2) (h : Fin 16) : Fin 32 := ⟨b.val * 16 + h.val, by omega⟩

open Cert.KernelIdeal Cert.KernelIdeal.Facts₀ in
/-- The kernel's result at an entry. -/
theorem result_apply (q : (⟨S2x16x2048x64, .f32⟩ : BufTy).Contents (Elt Ideal)) (e : (⟨S12x64, .f32⟩ : BufTy).Contents (Elt Ideal))
    (i : S2x16x2048x4095.Idx) :
    Host.result q e i = ∑ k : Fin 64, q (ix4 (i 0) (i 1) (i 2) k) * Host.table e (ix2 (i 3) k) := by
  unfold Host.result
  refine (shapeCast_apply _ shapeCasts_S32x2048x4095_S2x16x2048x4095 i (ix3 (mat (i 0) (i 1)) (i 2) (i 3))
    ((pos3 (n0 := 32) (n1 := 2048) (n2 := 4095) (mat (i 0) (i 1)) (i 2) (i 3)).trans (pos4 i).symm)).trans ?_
  show ∑ k : Fin 64, shapeCast S32x2048x64 q shapeCasts_S2x16x2048x64_S32x2048x64 (ix3 (mat (i 0) (i 1)) (i 2) k)
      * Host.table e (ix2 (i 3) k) = _
  refine Finset.sum_congr rfl fun k _ => ?_
  refine congrArg (· * Host.table e (ix2 (i 3) k)) ?_
  exact shapeCast_apply q shapeCasts_S2x16x2048x64_S32x2048x64 (ix3 (mat (i 0) (i 1)) (i 2) k) (ix4 (i 0) (i 1) (i 2) k)
    ((pos4 (n0 := 2) (n1 := 16) (n2 := 2048) (n3 := 64) (ix4 (i 0) (i 1) (i 2) k)).trans
      (pos3 (n0 := 32) (n1 := 2048) (n2 := 64) (mat (i 0) (i 1)) (i 2) k).symm)

/-- The table is one term in both programs. -/
theorem table_eq (e : (⟨Cert.KernelIdeal.S12x64, .f32⟩ : BufTy).Contents (Elt Ideal)) :
    Cert.KernelIdeal.Host.table e = Cert.ReferenceIdeal.Read.val_main_v12 (F := Ideal) e := rfl

/-- The kernel's result is the reference's, as functions of the queries and the embedding. -/
theorem result_eq (q : (⟨Cert.KernelIdeal.S2x16x2048x64, .f32⟩ : BufTy).Contents (Elt Ideal))
    (e : (⟨Cert.KernelIdeal.S12x64, .f32⟩ : BufTy).Contents (Elt Ideal)) :
    Cert.KernelIdeal.Host.result q e = Cert.ReferenceIdeal.Read.val_main_v13 (F := Ideal) q e := by
  funext i
  rw [result_apply, Cert.ReferenceIdeal.Read.val_main_v13_apply, table_eq]
  refine Finset.sum_congr rfl fun k _ => ?_
  refine congrArg₂ (· * ·) (congrArg q ?_) (congrArg (Cert.ReferenceIdeal.Read.val_main_v12 (F := Ideal) e) ?_)
  · funext a; match a with | ⟨0, _⟩ => rfl | ⟨1, _⟩ => rfl | ⟨2, _⟩ => rfl | ⟨3, _⟩ => rfl
  · funext a; match a with | ⟨0, _⟩ => rfl | ⟨1, _⟩ => rfl

end Cert.Bridge

end
-- ==== Proof.lean ====
/-
  Relative-position scores: a tiled matrix product against one whole contraction.

  The kernel views the [2, 16, 2048, 64] queries as 32 matrices, builds on the host the [4095, 64] table of relative
  positions (the sign-extended bits of -2047 .. 2047 times a [12, 64] embedding), and on a 32 x 4 x 4 grid multiplies
  each [512, 64] block of a query matrix by the transpose of a [1024, 64] block of the table, rounding both to the
  narrow format first; the fourth table block overhangs the table by one row and the fourth result block the result by
  one column, so those transfers are cut at the arrays' ends.  The reference contracts the last axis of the queries
  with the last axis of the same table in one operation.

  Over the extended reals the rounding is the identity and each product entry is the plain sum of 64 products, so both
  programs hold at (b, h, l, j) the sum over k of q[b, h, l, k] * table[j, k].  The one point that needs an argument is
  the overhanging block: after a cut fetch the last row of the table's staging buffer holds words nothing names, and
  the product computed from it is written back only on the columns inside the array, each of which reads a row inside
  the table.  At bit patterns that argument is not available, and not needed: the word-level program's frame forgets
  the result window altogether.

  The modules: the body on whole buffers (`IdealBody`, `KernelBody`), the proof data and the frame run
  (`IdealData`; `KernelFrame` for the word-level program), the product entry by entry and its independence of
  the filler (`IdealScore`), the result array as one function (`IdealValue`), the host lines around the region
  (`IdealHost`), and the comparison with the reference (`Bridge`).
-/
import proofs.«181769_j53077205844632_1_alg».proof.Defs
import proofs.«181769_j53077205844632_1_alg».proof.Proof.Gen.Kernel
import proofs.«181769_j53077205844632_1_alg».proof.Proof.Gen.KernelIdeal
import proofs.«181769_j53077205844632_1_alg».proof.Proof.Gen.ReferenceIdeal
import proofs.«181769_j53077205844632_1_alg».proof.Proof.Gen.Pre_finite_inputs
import proofs.«181769_j53077205844632_1_alg».proof.Proof.Gen.ReferenceIdeal.Run
import proofs.«181769_j53077205844632_1_alg».proof.Proof.Gen.ReferenceIdeal.Read
import proofs.«181769_j53077205844632_1_alg».proof.Proof.KernelFrame
import proofs.«181769_j53077205844632_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Data.frame m ρ

/-- So does the idealized one: its value run, the result dropped. -/
theorem frame_ideal : Cert.frame_KernelIdeal := fun m ρ _ =>
  (θ_run Cert.KernelIdeal.defs _ _).mono (fun _ h c => (h c).2) (Cert.KernelIdeal.Host.run m ρ)

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with one result: the kernel's function
    of the queries and the embedding is the reference's. -/
theorem algebraic : Cert.algebraic_KernelIdeal_ReferenceIdeal := by
  intro m ρ m' ρ' _ hagree
  refine ⟨_, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2, Cert.ReferenceIdeal.Read.val_main_v13_eq]
  exact (Cert.Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
